-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel

variable [Facts]

def fn {F : FTy → Type} [FloatOps F] (main_arg0 : FVec F S16x8192x256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  main_v3
-- ==== Kernel.lean ====
abbrev S16x8192x256 : Shape := ⟨3, ![16, 8192, 256]⟩
abbrev S16x16384x256 : Shape := ⟨3, ![16, 16384, 256]⟩
abbrev S1x2048x256 : Shape := ⟨3, ![1, 2048, 256]⟩
abbrev S1x8x256 : Shape := ⟨3, ![1, 8, 256]⟩
abbrev S1x4096x256 : Shape := ⟨3, ![1, 4096, 256]⟩
abbrev S2048x256 : Shape := ⟨2, ![2048, 256]⟩
abbrev S1x1x256 : Shape := ⟨3, ![1, 1, 256]⟩
abbrev S256 : Shape := ⟨1, ![256]⟩
abbrev S1x256 : Shape := ⟨2, ![1, 256]⟩
abbrev S2048x1x256 : Shape := ⟨3, ![2048, 1, 256]⟩
abbrev S2048x2x256 : Shape := ⟨3, ![2048, 2, 256]⟩
abbrev S4096x256 : Shape := ⟨2, ![4096, 256]⟩

abbrev nBuf : Space → Nat
  | .hbm => 2
  | .vmem => 6
  | .smem => 0
  | _ => 0

abbrev bufTy : (tb : Table) → Fin (tcTables nBuf tb) → BufTy
  | .hbm, ⟨0, _⟩ => ⟨S16x8192x256, .f32⟩
  | .hbm, ⟨1, _⟩ => ⟨S16x16384x256, .f32⟩
  | .local _ .vmem, ⟨0, _⟩ => ⟨S1x2048x256, .f32⟩
  | .local _ .vmem, ⟨1, _⟩ => ⟨S1x2048x256, .f32⟩
  | .local _ .vmem, ⟨2, _⟩ => ⟨S1x8x256, .f32⟩
  | .local _ .vmem, ⟨3, _⟩ => ⟨S1x8x256, .f32⟩
  | .local _ .vmem, ⟨4, _⟩ => ⟨S1x4096x256, .f32⟩
  | .local _ .vmem, ⟨5, _⟩ => ⟨S1x4096x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x8x256_S1x1x256_0_0_0 : ∀ a, (![0, 0, 0] : Fin 3 → Nat) a + S1x1x256.size a ≤ S1x8x256.size a
  h_S1x1x256 : 0 < S1x1x256.numel
  shapeCasts_S1x1x256_S256 : S1x1x256.ShapeCasts S256
  rotates_S2048x256_d0 : S2048x256.Rotates 0 none
  iota_S2048x256_d0_w32 : S2048x256.Iotas .tc 32 [0]
  slices_S2048x256_o2047_0_S1x256 : S2048x256.Slices ![2047, 0] S1x256
  shapeCasts_S1x256_S256 : S1x256.ShapeCasts S256
  shapeCasts_S256_S1x256 : S256.ShapeCasts S1x256
  shapeCasts_S1x256_S1x256 : S1x256.ShapeCasts S1x256
  broadcasts_S1x256_S2048x256 : S1x256.Broadcasts S2048x256
  shapeCasts_S2048x256_S2048x1x256 : S2048x256.ShapeCasts S2048x1x256
  concatenates_S2048x1x256_S2048x1x256_S2048x2x256_d1 : Shape.Concatenates [S2048x1x256, S2048x1x256] S2048x2x256 1
  shapeCasts_S2048x2x256_S4096x256 : S2048x2x256.ShapeCasts S4096x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x8192x256.size a
  hwx0_0 : ∀ i : grid0.Coords, EltTy.bits .f32 = 32 ∨ (Rect.block (s := S16x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256.size a ≤ S16x8192x256.size a
  hwx0_1 : ∀ i : grid0.Coords, EltTy.bits .f32 = 32 ∨ (Rect.block (s := S16x8192x256) S1x8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S16x16384x256.size a
  hwx0_2 : ∀ i : grid0.Coords, EltTy.bits .f32 = 32 ∨ (Rect.block (s := S16x16384x256) S1x4096x256.size (cc0_transform_2 i) (hinb0_2 i)).WholeWords (EltTy.packing .f32)

variable [Facts₀]

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S16x8191x256 : Shape := ⟨3, ![16, 8191, 256]⟩
abbrev S_ : Shape := ⟨0, ![]⟩
abbrev S16x1x256 : Shape := ⟨3, ![16, 1, 256]⟩
abbrev S16x8192x1x256 : Shape := ⟨4, ![16, 8192, 1, 256]⟩
abbrev S16x8192x2x256 : Shape := ⟨4, ![16, 8192, 2, 256]⟩
abbrev S16x16384x256 : Shape := ⟨3, ![16, 16384, 256]⟩

abbrev nBuf : Space → Nat
  | .hbm => 13
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x8191x256, .f32⟩
  | .hbm, ⟨2, _⟩ => ⟨S16x8191x256, .f32⟩
  | .hbm, ⟨3, _⟩ => ⟨S16x8191x256, .f32⟩
  | .hbm, ⟨4, _⟩ => ⟨S_, .f32⟩
  | .hbm, ⟨5, _⟩ => ⟨S16x8191x256, .f32⟩
  | .hbm, ⟨6, _⟩ => ⟨S16x8191x256, .f32⟩
  | .hbm, ⟨7, _⟩ => ⟨S16x1x256, .f32⟩
  | .hbm, ⟨8, _⟩ => ⟨S16x8192x256, .f32⟩
  | .hbm, ⟨9, _⟩ => ⟨S16x8192x1x256, .f32⟩
  | .hbm, ⟨10, _⟩ => ⟨S16x8192x1x256, .f32⟩
  | .hbm, ⟨11, _⟩ => ⟨S16x8192x2x256, .f32⟩
  | .hbm, ⟨12, _⟩ => ⟨S16x16384x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  slices_S16x8192x256_S16x8191x256_0_0_0 : S16x8192x256.Slices ![0, 0, 0] S16x8191x256
  slices_S16x8192x256_S16x8191x256_0_1_0 : S16x8192x256.Slices ![0, 1, 0] S16x8191x256
  bcast_S_S16x8191x256 : S_.BroadcastsInDim S16x8191x256 (![] : Fin 0 → Fin S16x8191x256.rank)
  slices_S16x8192x256_S16x1x256_0_8191_0 : S16x8192x256.Slices ![0, 8191, 0] S16x1x256
  concatenates_S16x8191x256_S16x1x256_S16x8192x256_d1 : Shape.Concatenates [S16x8191x256, S16x1x256] S16x8192x256 1
  bcast_S16x8192x256_S16x8192x1x256_0_1_3 : S16x8192x256.BroadcastsInDim S16x8192x1x256 (![0, 1, 3] : Fin 3 → Fin S16x8192x1x256.rank)
  concatenates_S16x8192x1x256_S16x8192x1x256_S16x8192x2x256_d2 : Shape.Concatenates [S16x8192x1x256, S16x8192x1x256] S16x8192x2x256 2
  shapeCasts_S16x8192x2x256_S16x16384x256 : S16x8192x2x256.ShapeCasts S16x16384x256

variable [Facts₀]

class Facts : Prop extends Facts₀ where

variable [Facts]
-- ==== Proof.LibSharedArray.lean ====
/-
  Two input windows of one pallas_call that read the SAME array (the same operand handed in through two in_specs).

  The launch hands a pipeline the distinct buffers behind its windows' arrays, each whole at the full share. The
  pipeline's proof data wants one points-to per WINDOW. When exactly two windows w₁ ≠ w₂ sit on one buffer and the
  array map is otherwise injective, the buffer's full share is cut in its two halves: w₁ holds the left half, w₂ the
  right half, both at the same contents; every other window holds its own buffer at the full share. Both directions
  are proved (the split at region entry, the join at region exit, where both windows still hold the same contents
  because inputs are never written back).
-/
import Idealize.ShloMosaic.Lib.Pipeline.Launch
import Idealize.ShloMosaic.Lib.Pipeline.Regions

noncomputable section

namespace Idealize.ShloMosaic.Pipeline

open Idealize.SL
open Idealize.SL.BI (sProp bigSep bigSep_congr bigSep_erase bigSep_univ_split bigSep_image_of_injOn)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

/-- One buffer whole at share `q` at contents `V b`, as a function of the buffer: equal buffers give equal assertions. -/
theorem wholeAt_congr (c : Dev nD) (V : (b : Ref sig .tc) → Buf Val ((c.tc : Thread nD τ).loc b)) (q : PosShare TreeShare)
    {b₁ b₂ : Ref sig .tc} (h : b₁ = b₂) :
    ((((c.tc : Thread nD τ).loc b₁) ↦{q} V b₁ : sProp 𝕄)) = (((c.tc : Thread nD τ).loc b₂) ↦{q} V b₂ : sProp 𝕄) := by
  subst h; rfl

/-- The distinct buffers behind the windows' arrays, whole at the full share at contents `V`, are exactly the proof
    data's per-window arrays at the same contents, when windows `w₁` and `w₂` share a buffer (held in halves) and all
    the other windows have buffers of their own (held whole). -/
theorem arrBufs_arrays_of_pair {cfg : Cfg sig Λ₀} {c : Dev nD} (dat : Dat τ Val Ix Name U Lvl cfg c)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊣⊢ dat.arrays F := by
  classical
  have himg : (Finset.univ.image (arrRef cfg.spec) : Finset (Ref sig .tc)) = (Finset.univ.erase w₂).image (arrRef cfg.spec) := by
    ext b; constructor
    · intro hb
      obtain ⟨w, -, rfl⟩ := Finset.mem_image.mp hb
      by_cases hw : w = w₂
      · subst hw; exact Finset.mem_image.mpr ⟨w₁, Finset.mem_erase.mpr ⟨hne, Finset.mem_univ _⟩, heq⟩
      · exact Finset.mem_image.mpr ⟨w, Finset.mem_erase.mpr ⟨hw, Finset.mem_univ _⟩, rfl⟩
    · intro hb
      obtain ⟨w, -, rfl⟩ := Finset.mem_image.mp hb
      exact Finset.mem_image.mpr ⟨w, Finset.mem_univ _, rfl⟩
  have hw₁ : w₁ ∈ (Finset.univ.erase w₂ : Finset (Fin cfg.W)) := Finset.mem_erase.mpr ⟨hne, Finset.mem_univ _⟩
  -- the right-hand side, window by window over the buffers' references
  have hR : dat.arrays F = bigSep Finset.univ fun w =>
      ((((c.tc : Thread nD τ).loc (arrRef cfg.spec w)) ↦{dat.share w} V (arrRef cfg.spec w) : sProp 𝕄)) := by
    unfold Dat.arrays
    exact bigSep_congr fun w _ => by rw [(harr w).set_eq_univ, hF]
  rw [hR]; unfold arrBufs
  rw [himg, bigSep_image_of_injOn hinj, bigSep_erase hw₁, bigSep_univ_split w₂, bigSep_erase hw₁]
  have hrest : (bigSep ((Finset.univ.erase w₂).erase w₁) fun w =>
        ((((c.tc : Thread nD τ).loc (arrRef cfg.spec w)) ↦{fullShare} V (arrRef cfg.spec w) : sProp 𝕄)))
      = bigSep ((Finset.univ.erase w₂).erase w₁) fun w =>
        ((((c.tc : Thread nD τ).loc (arrRef cfg.spec w)) ↦{dat.share w} V (arrRef cfg.spec w) : sProp 𝕄)) :=
    bigSep_congr fun w hw => by
      rw [hq w (Finset.ne_of_mem_erase hw) (Finset.ne_of_mem_erase (Finset.mem_of_mem_erase hw))]
  rw [hrest, hq₁, hq₂, ← wholeAt_congr c V fullShare.right heq]
  have hsh : ((((c.tc : Thread nD τ).loc (arrRef cfg.spec w₁)) ↦{fullShare} V (arrRef cfg.spec w₁) : sProp 𝕄))
      ⊣⊢ iprop(((((c.tc : Thread nD τ).loc (arrRef cfg.spec w₁)) ↦{fullShare.left} V (arrRef cfg.spec w₁) : sProp 𝕄))
        ∗ (((c.tc : Thread nD τ).loc (arrRef cfg.spec w₁)) ↦{fullShare.right} V (arrRef cfg.spec w₁) : sProp 𝕄)) :=
    pointsTo_share (PosShare.mem_left_op_right fullShare)
  constructor
  · exact ((sep_mono (hsh.1.trans sep_comm.1) .rfl).trans sep_assoc.1)
  · exact (sep_assoc.2.trans (sep_mono (sep_comm.1.trans hsh.2) .rfl))

/-- ENTRY of a region whose windows `w₁`, `w₂` read one array: a core's unscoped buffers at contents `V` are the
    pipeline's arrays at the proof data's entry contents (read off `V`) and the unscoped rest. -/
theorem arrays_of_unscopedBufs_pair {cfg : Cfg sig Λ₀} {c : Dev nD} (dat : Dat τ Val Ix Name U Lvl cfg c)
    (hunscoped : ∀ w, (arrRef cfg.spec w).isScoped = false)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V : (b : Ref sig .tc) → Buf Val ((c.tc : Thread nD τ).loc b))
    (hA : ∀ w, dat.A w = V (arrRef cfg.spec w)) :
    (unscopedBufs c V : sProp 𝕄) ⊢ iprop(dat.arrays (dat.arrAt · 0) ∗ unscopedRest cfg.spec c V) := by
  rw [unscopedBufs_split₀ (fun _ : Unit => cfg) () hunscoped c V]
  exact sep_mono (arrBufs_arrays_of_pair dat harr w₁ w₂ hne heq hinj hq₁ hq₂ hq V _
    (fun w => by rw [show dat.arrAt w 0 = dat.A w from rfl, hA])).1 .rfl

/-- EXIT of such a region: the arrays at contents `F` and the unscoped rest at `V` are the core's unscoped buffers at
    any valuation `V'` that has the arrays at `F` and agrees with `V` off them. The two windows on one buffer hold the
    same contents (both are `V'` at that buffer), so their halves join. -/
theorem unscopedBufs_of_arrays_pair {cfg : Cfg sig Λ₀} {c : Dev nD} (dat : Dat τ Val Ix Name U Lvl cfg c)
    (hunscoped : ∀ w, (arrRef cfg.spec w).isScoped = false)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V V' : (b : Ref sig .tc) → Buf Val ((c.tc : Thread nD τ).loc b))
    (F : (w : Fin cfg.W) → Buf Val ((cfg.spec w).arr.view.loc (c.tc : Thread nD τ)))
    (hF : ∀ w, F w = V' (arrRef cfg.spec w))
    (hrest : ∀ b, b ∉ Finset.univ.image (arrRef cfg.spec) → V' b = V b) :
    iprop(dat.arrays F ∗ unscopedRest cfg.spec c V) ⊢ (unscopedBufs c V' : sProp 𝕄) := by
  rw [unscopedBufs_split₀ (fun _ : Unit => cfg) () hunscoped c V']
  refine sep_mono (arrBufs_arrays_of_pair dat harr w₁ w₂ hne heq hinj hq₁ hq₂ hq V' F hF).2 (Entails.of_eq ?_)
  unfold unscopedRest
  exact bigSep_congr fun b hb => by rw [hrest b (Finset.mem_sdiff.mp hb).2]

end Idealize.ShloMosaic.Pipeline

end
-- ==== Proof.LibSharedFrame.lean ====
/-
  The run of a one-region program whose pipeline has TWO INPUT WINDOWS ON ONE ARRAY (one operand handed in through two
  in_specs), for a kernel with no semaphore, transfer or scratch of its own.

  The launch hands the region the distinct buffers behind the windows' arrays; the shared buffer's full share is cut in
  its two halves, one per window (the pair lemma of the shared-array module), every other window keeps its own buffer
  whole. The body's invariant is the core's scoped buffers that are no staging buffer, untouched. The conclusion reads
  every window's array after the run: what the proof data compute after the last write-back — for an input window its
  contents at the region's entry.
-/
import Idealize.ShloMosaic.Lib.Pipeline.Frame
import proofs.«120798_j87969520157065_2_alg».proof.Proof.LibSharedArray

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- Every weakly fair execution of @main — the region alone, or host operations then the region (`hmain`) — terminates,
    and every final state has each window's array at what the proof data compute after the last write-back, when
    windows `w₁ ≠ w₂` read one array held in halves and every other window has an array of its own. -/
theorem θ_run_frame_pair
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (w₁ w₂ : Fin (cfgs p).W) (h12 : w₁ ≠ w₂) (heq : arrRef (cfgs p).spec w₁ = arrRef (cfgs p).spec w₂)
    (hinjOn : Set.InjOn (arrRef (cfgs p).spec) ((Finset.univ.erase w₂ : Finset (Fin (cfgs p).W)) : Set (Fin (cfgs p).W)))
    (hq₁ : ∀ c, (dats p c).share w₁ = fullShare.left) (hq₂ : ∀ c, (dats p c).share w₂ = fullShare.right)
    (hq : ∀ c w, w ≠ w₁ → w ≠ w₂ → (dats p c).share w = fullShare)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hA : ∀ c w, (dats p c).A w = V c (arrRef (cfgs p).spec w))
    (hΦ : ∀ c t, (dats p c).Φ t = scopedRest (cfgs p).spec c) :
    θ_run (Pipeline.defs (fun q => Cfg.toPCfg (Val := Val) (cfgs q)) defs₀) (onTc main) (s₀ m g)
      (fun r => ∀ (c : Dev nD) (w : Fin (cfgs p).W),
        r.2.mem (((cfgs p).spec w).arr.view.loc (c.tc : Thread nD τ)) = (dats p c).arrAt w (cfgs p).N) :=
  θ_run_region_noSem_shared cfgs dats () hinj p hw emb₁ defs₀ 𝒱₀ m g main hbody hne harr hstage howed
    (initOf (cells cfgs hinj) (launchToks cfgs hinj)) (BI.Entails.refl _) V hmain
    (fun c => (arrBufs_arrays_of_pair (dats p c) harr w₁ w₂ h12 heq hinjOn (hq₁ c) (hq₂ c) (hq c) (V c) _
      (fun w => by rw [show (dats p c).arrAt w 0 = (dats p c).A w from rfl, hA])).1)
    (X := fun _ => iprop(emp)) (Y := fun _ => iprop(emp)) (Z := fun _ => iprop(emp))
    (hX := fun c => by iintro -; isplitr <;> iempintro)
    (hin := fun c => by rw [hΦ]; iintro ⟨-, H⟩; iexact H)
    (hout := fun c => by rw [hΦ]; iintro H; isplitr; · iempintro
                         iexact H)
    (QY := fun _ _ => True)
    (hY := fun c s' => by
      iintro ⟨-, -, HSI⟩; imodintro
      isplitr; · ipureintro; trivial
      iexact HSI)
    (hQ := fun _ h c w => (h c).1 w)

end Idealize.ShloMosaic.Pipeline

end
-- ==== Proof.KernelRun.lean ====
/-
  The run of `Kernel`'s @main, read at the arrays of its one pipeline.

  The kernel doubles the length of each of the 16 sequences x[b] (8192 rows of 256 lanes): output row 2k is row k of
  x[b], output row 2k+1 the midpoint of row k and the row after it. The grid has 16 x 4 points; point (b, i) reads the
  2048 rows [2048 i, 2048 i + 2048) of x[b] through window 0 and, through window 1, the block of 8 rows that starts at
  the row after them (clamped to the last block of 8 rows), of which it uses row 0; it writes the 4096 output rows
  [4096 i, 4096 i + 4096) through window 2. Windows 0 and 1 read the SAME array, so the launch cuts that array's full
  share in halves, one per window (the pair form of the region's run); the output window has an array of its own.

  The body loads both input buffers whole, computes, and stores the output buffer whole: what it leaves there is one
  pure term of the two input blocks (the skeleton's payload), named `out2` below. The inputs' buffers hold their
  blocks at every point, and are left as they were.
-/
import proofs.«120798_j87969520157065_2_alg».proof.Proof.Gen.Kernel.Launch
import proofs.«120798_j87969520157065_2_alg».proof.Proof.Gen.Kernel.Skeleton
import proofs.«120798_j87969520157065_2_alg».proof.Proof.Gen.Kernel.Points
import proofs.«120798_j87969520157065_2_alg».proof.Proof.LibSharedFrame
import Idealize.ShloMosaic.Lib.Pipeline.FrameBody
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output buffer -/

abbrev r0 : Rect S1x2048x256 := Rect.unit (s := S1x2048x256) ![0, 0, 0] S1x2048x256.size inb_S1x2048x256_S1x2048x256_0_0_0
abbrev r1 : Rect S1x8x256 := Rect.unit (s := S1x8x256) ![0, 0, 0] S1x1x256.size inb_S1x8x256_S1x1x256_0_0_0
abbrev r2 : Rect S1x4096x256 := Rect.unit (s := S1x4096x256) ![0, 0, 0] S1x4096x256.size inb_S1x4096x256_S1x4096x256_0_0_0

/-- The output buffer after the body at grid coordinates `i`, from the two input blocks: its one whole store. -/
def out2 (i : grid0.Coords) (x0 : Vec F S1x2048x256 .f32) (x1 : Vec F S1x8x256 .f32) : Vec F S1x4096x256 .f32 :=
  View.canon [⟨r2, k0_pay1 i (View.ld x0 r0) (View.ld x1 r1)⟩]

/-- The one store fills the buffer. -/
theorem cover2 (p0 : Vec F S1x4096x256 .f32) (y : S1x4096x256.Idx) :
    ∃ pc ∈ ([⟨r2, p0⟩] : List (View.Piece (Elt F) S1x4096x256 .f32)), y ∈ pc.1.set :=
  View.cover_of_tiled [⟨r2, p0⟩] S1x4096x256.size (by rfl) y

/-! ## The body's triple -/

set_option maxHeartbeats 1000000 in
/-- The body on whole staging memrefs, the inputs' at read contents `x0`, `x1` and the output's at anything, runs to the
    continuation holding the inputs' as they were and the output's at `out2` of them. -/
theorem sound_kernel (c : Dev nD) (E : Set ℕ) (i : grid0.Coords) (arg2 : Memref sig .tc .vmem S1x2048x256 .f32) (harg2 : arg2.IsWhole)
    (arg3 : Memref sig .tc .vmem S1x8x256 .f32) (harg3 : arg3.IsWhole) (arg4 : Memref sig .tc .vmem S1x4096x256 .f32) (harg4 : arg4.IsWhole)
    (x0 : Vec F S1x2048x256 .f32) (x1 : Vec F S1x8x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 i x0 x1)) -∗ K ⟨⟩))
      ⊢ wp frame (wpE (defs₀ (F := F)) Variants.none c none) E (cc0__interp_kernel i arg2 harg2 arg3 harg3 arg4 harg4) K := by
  simp only [cc0__interp_kernel_eq_skeleton]; unfold cc0__interp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the one pipeline on core `c`: the arrays as the region finds them; after the body at point `t`
    each input's buffer at its block and the output's at `out2` of the two blocks; the invariant the core's scoped
    buffers that are no staging buffer (there is none); nothing owed; the shared input array held in halves, the left
    half by window 0 and the right half by window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = out2 (grid0.coords t) (iblk m c 0 t) (iblk m c 1 t) := by dsimp only [dats]

/-- Each input's current staging buffer holds its block at every point: the body leaves the block in place, so a
    buffer not fetched into still holds it. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shares of the windows' arrays -/

theorem share0 (c : Dev nD) : (dats m 0 c).share (0 : Fin 3) = fullShare.left := rfl
theorem share1 (c : Dev nD) : (dats m 0 c).share (1 : Fin 3) = fullShare.right := rfl
theorem share_rest (c : Dev nD) (w : Fin cfg0.W) (h0 : w ≠ (0 : Fin 3)) (h1 : w ≠ (1 : Fin 3)) : (dats m 0 c).share w = fullShare :=
  match w, h0, h1 with
  | ⟨0, _⟩, h0, _ => absurd rfl h0
  | ⟨1, _⟩, _, h1 => absurd rfl h1
  | ⟨2, _⟩, _, _ => rfl

/-- Windows 0 and 1 read one array; -/
theorem arr_shared : Pipeline.arrRef spec0 (0 : Fin 3) = Pipeline.arrRef spec0 (1 : Fin 3) := rfl
/-- the output's array is another. -/
theorem arr_injOn : Set.InjOn (Pipeline.arrRef spec0) ((Finset.univ.erase (1 : Fin 3) : Finset (Fin 3)) : Set (Fin 3)) := by
  intro a ha b hb hab
  have ha' : a ≠ 1 := (Finset.mem_erase.mp (Finset.mem_coe.mp ha)).1
  have hb' : b ≠ 1 := (Finset.mem_erase.mp (Finset.mem_coe.mp hb)).1
  revert hab; revert ha' hb'; revert a b
  decide

/-! ## The run -/

set_option backward.isDefEq.respectTransparency.types false in
/-- For any float values, from any memory with zero counters: every weakly fair execution of @main terminates, and every
    final state has every array of the pipeline at what the proof data compute after the last write-back. -/
theorem run_main : θ_run defs (onTc (τ := τ) (main (F := F))) ⟨m, fun _ => 0, ρ⟩
    (fun r => ∀ (c : Dev nD) (w : Fin cfg0.W),
      r.2.mem ((spec0 w).arr.view.loc (c : Thread nD τ)) = (dats m 0 c).arrAt w cfg0.N) :=
  Pipeline.θ_run_frame_pair cfgs (dats m) (0 : Fin 1) defs₀ Variants.none cellOf_inj winFacts₀0 block_pos0 arr_whole0 stage_whole0
    m ρ main (hbody := fun c => (body_obligation m c).loose) (howed := fun _ _ => rfl)
    (w₁ := (0 : Fin 3)) (w₂ := (1 : Fin 3)) (h12 := by decide) (heq := arr_shared) (hinjOn := arr_injOn)
    (hq₁ := share0 m) (hq₂ := share1 m) (hq := share_rest m)
    (V := V m) (hmain := hmain m Variants.none) (hA := A_eq m) (hΦ := fun _ _ => rfl)

/-- The argument array is read by both input windows and written by none: it ends as launched. -/
theorem arg_kept (r : PUnit × MemSt nD τ sig (Elt F))
    (h : ∀ (c : Dev nD) (w : Fin cfg0.W), r.2.mem ((spec0 w).arr.view.loc (c : Thread nD τ)) = (dats m 0 c).arrAt w cfg0.N)
    (c : Dev nD) : r.2.mem ((c.tc : Thread nD τ).loc main_arg0) = m ((c.tc : Thread nD τ).loc main_arg0) :=
  (h c 0).trans (((dats m 0 c).arrAt_in 0 rfl _).trans (A_eq m c 0))

/-- The frame: @main runs to the end, nothing faults, the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => arg_kept m r h c) (run_main m ρ)

end Cert.Kernel.Run

end
-- ==== Proof.KernelIdealRun.lean ====
/-
  The run of `KernelIdeal`'s @main, read at the arrays of its one pipeline.

  The kernel doubles the length of each of the 16 sequences x[b] (8192 rows of 256 lanes): output row 2k is row k of
  x[b], output row 2k+1 the midpoint of row k and the row after it. The grid has 16 x 4 points; point (b, i) reads the
  2048 rows [2048 i, 2048 i + 2048) of x[b] through window 0 and, through window 1, the block of 8 rows that starts at
  the row after them (clamped to the last block of 8 rows), of which it uses row 0; it writes the 4096 output rows
  [4096 i, 4096 i + 4096) through window 2. Windows 0 and 1 read the SAME array, so the launch cuts that array's full
  share in halves, one per window (the pair form of the region's run); the output window has an array of its own.

  The body loads both input buffers whole, computes, and stores the output buffer whole: what it leaves there is one
  pure term of the two input blocks (the skeleton's payload), named `out2` below. The inputs' buffers hold their
  blocks at every point, and are left as they were.
-/
import proofs.«120798_j87969520157065_2_alg».proof.Proof.Gen.KernelIdeal.Launch
import proofs.«120798_j87969520157065_2_alg».proof.Proof.Gen.KernelIdeal.Skeleton
import proofs.«120798_j87969520157065_2_alg».proof.Proof.Gen.KernelIdeal.Points
import proofs.«120798_j87969520157065_2_alg».proof.Proof.LibSharedFrame
import Idealize.ShloMosaic.Lib.Pipeline.FrameBody
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output buffer -/

abbrev r0 : Rect S1x2048x256 := Rect.unit (s := S1x2048x256) ![0, 0, 0] S1x2048x256.size inb_S1x2048x256_S1x2048x256_0_0_0
abbrev r1 : Rect S1x8x256 := Rect.unit (s := S1x8x256) ![0, 0, 0] S1x1x256.size inb_S1x8x256_S1x1x256_0_0_0
abbrev r2 : Rect S1x4096x256 := Rect.unit (s := S1x4096x256) ![0, 0, 0] S1x4096x256.size inb_S1x4096x256_S1x4096x256_0_0_0

/-- The output buffer after the body at grid coordinates `i`, from the two input blocks: its one whole store. -/
def out2 (i : grid0.Coords) (x0 : Vec F S1x2048x256 .f32) (x1 : Vec F S1x8x256 .f32) : Vec F S1x4096x256 .f32 :=
  View.canon [⟨r2, k0_pay1 i (View.ld x0 r0) (View.ld x1 r1)⟩]

/-- The one store fills the buffer. -/
theorem cover2 (p0 : Vec F S1x4096x256 .f32) (y : S1x4096x256.Idx) :
    ∃ pc ∈ ([⟨r2, p0⟩] : List (View.Piece (Elt F) S1x4096x256 .f32)), y ∈ pc.1.set :=
  View.cover_of_tiled [⟨r2, p0⟩] S1x4096x256.size (by rfl) y

/-! ## The body's triple -/

set_option maxHeartbeats 1000000 in
/-- The body on whole staging memrefs, the inputs' at read contents `x0`, `x1` and the output's at anything, runs to the
    continuation holding the inputs' as they were and the output's at `out2` of them. -/
theorem sound_kernel (c : Dev nD) (E : Set ℕ) (i : grid0.Coords) (arg2 : Memref sig .tc .vmem S1x2048x256 .f32) (harg2 : arg2.IsWhole)
    (arg3 : Memref sig .tc .vmem S1x8x256 .f32) (harg3 : arg3.IsWhole) (arg4 : Memref sig .tc .vmem S1x4096x256 .f32) (harg4 : arg4.IsWhole)
    (x0 : Vec F S1x2048x256 .f32) (x1 : Vec F S1x8x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 i x0 x1)) -∗ K ⟨⟩))
      ⊢ wp frame (wpE (defs₀ (F := F)) Variants.none c none) E (cc0__interp_kernel i arg2 harg2 arg3 harg3 arg4 harg4) K := by
  simp only [cc0__interp_kernel_eq_skeleton]; unfold cc0__interp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the one pipeline on core `c`: the arrays as the region finds them; after the body at point `t`
    each input's buffer at its block and the output's at `out2` of the two blocks; the invariant the core's scoped
    buffers that are no staging buffer (there is none); nothing owed; the shared input array held in halves, the left
    half by window 0 and the right half by window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = out2 (grid0.coords t) (iblk m c 0 t) (iblk m c 1 t) := by dsimp only [dats]

/-- Each input's current staging buffer holds its block at every point: the body leaves the block in place, so a
    buffer not fetched into still holds it. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shares of the windows' arrays -/

theorem share0 (c : Dev nD) : (dats m 0 c).share (0 : Fin 3) = fullShare.left := rfl
theorem share1 (c : Dev nD) : (dats m 0 c).share (1 : Fin 3) = fullShare.right := rfl
theorem share_rest (c : Dev nD) (w : Fin cfg0.W) (h0 : w ≠ (0 : Fin 3)) (h1 : w ≠ (1 : Fin 3)) : (dats m 0 c).share w = fullShare :=
  match w, h0, h1 with
  | ⟨0, _⟩, h0, _ => absurd rfl h0
  | ⟨1, _⟩, _, h1 => absurd rfl h1
  | ⟨2, _⟩, _, _ => rfl

/-- Windows 0 and 1 read one array; -/
theorem arr_shared : Pipeline.arrRef spec0 (0 : Fin 3) = Pipeline.arrRef spec0 (1 : Fin 3) := rfl
/-- the output's array is another. -/
theorem arr_injOn : Set.InjOn (Pipeline.arrRef spec0) ((Finset.univ.erase (1 : Fin 3) : Finset (Fin 3)) : Set (Fin 3)) := by
  intro a ha b hb hab
  have ha' : a ≠ 1 := (Finset.mem_erase.mp (Finset.mem_coe.mp ha)).1
  have hb' : b ≠ 1 := (Finset.mem_erase.mp (Finset.mem_coe.mp hb)).1
  revert hab; revert ha' hb'; revert a b
  decide

/-! ## The run -/

set_option backward.isDefEq.respectTransparency.types false in
/-- For any float values, from any memory with zero counters: every weakly fair execution of @main terminates, and every
    final state has every array of the pipeline at what the proof data compute after the last write-back. -/
theorem run_main : θ_run defs (onTc (τ := τ) (main (F := F))) ⟨m, fun _ => 0, ρ⟩
    (fun r => ∀ (c : Dev nD) (w : Fin cfg0.W),
      r.2.mem ((spec0 w).arr.view.loc (c : Thread nD τ)) = (dats m 0 c).arrAt w cfg0.N) :=
  Pipeline.θ_run_frame_pair cfgs (dats m) (0 : Fin 1) defs₀ Variants.none cellOf_inj winFacts₀0 block_pos0 arr_whole0 stage_whole0
    m ρ main (hbody := fun c => (body_obligation m c).loose) (howed := fun _ _ => rfl)
    (w₁ := (0 : Fin 3)) (w₂ := (1 : Fin 3)) (h12 := by decide) (heq := arr_shared) (hinjOn := arr_injOn)
    (hq₁ := share0 m) (hq₂ := share1 m) (hq := share_rest m)
    (V := V m) (hmain := hmain m Variants.none) (hA := A_eq m) (hΦ := fun _ _ => rfl)

/-- The argument array is read by both input windows and written by none: it ends as launched. -/
theorem arg_kept (r : PUnit × MemSt nD τ sig (Elt F))
    (h : ∀ (c : Dev nD) (w : Fin cfg0.W), r.2.mem ((spec0 w).arr.view.loc (c : Thread nD τ)) = (dats m 0 c).arrAt w cfg0.N)
    (c : Dev nD) : r.2.mem ((c.tc : Thread nD τ).loc main_arg0) = m ((c.tc : Thread nD τ).loc main_arg0) :=
  (h c 0).trans (((dats m 0 c).arrAt_in 0 rfl _).trans (A_eq m c 0))

/-- The frame: @main runs to the end, nothing faults, the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => arg_kept m r h c) (run_main m ρ)

end Cert.KernelIdeal.Run

end
-- ==== Proof.Upsample.lean ====
/-
  Doubling the length of a sequence by linear interpolation, as one function of the array, index by index; and the
  layout steps a block-wise computation of it goes through, read at an index.

  For an array X of 16 sequences of 8192 rows of 256 lanes, the doubled array has, in sequence b and lane l,
    row 2k      = X[b, k, l]
    row 2k + 1  = (X[b, k, l] + X[b, k', l]) * (1/2),   k' the row after k, and the last row its own successor.
  At the last row the midpoint is (x + x) * (1/2) = x on every extended real, infinite ones included, which is how a
  computation that copies the last row there agrees with one that averages it with itself.
-/
import Idealize.ShloMosaic.Lib.ValueIdx
import Idealize.ShloMosaic.Lib.Pipeline.Value
import Idealize.ShloMosaic.Lib.KernelVsHost
import Idealize.ShloMosaic.PureOps.Ideal

noncomputable section

namespace Cert.Upsample

open Idealize.ShloMosaic Idealize.ShloMosaic.ValueIdx

/-! ## The specification -/

/-- The row after `k`; the last row is its own successor. -/
def next (k : Fin 8192) : Fin 8192 := ⟨min (k.val + 1) 8191, by omega⟩

/-- Row `r` of the doubled sequence comes from row `r / 2`. -/
def src (r : Fin 16384) : Fin 8192 := ⟨r.val / 2, by have := r.isLt; omega⟩

/-- One half, as the word both programs spell. -/
abbrev half : Ideal .f32 := Ideal.ofBits .f32 0x3F000000#32

/-- The doubled array. -/
def upsample (X : FVec Ideal ⟨3, ![16, 8192, 256]⟩ .f32) : FVec Ideal ⟨3, ![16, 16384, 256]⟩ .f32 := fun i =>
  if (i 1).val % 2 = 0 then X (ix3 (i 0) (src (i 1)) (i 2))
  else (X (ix3 (i 0) (src (i 1)) (i 2)) + X (ix3 (i 0) (next (src (i 1))) (i 2))) * half

/-! ## The two laws on the extended reals -/

/-- The word `0x3F000000` is the real one half. -/
theorem half_eq : half = ((1 / 2 : ℝ) : EReal) := by
  simp [half, Ideal.ofBits, Ideal.ieee, -EReal.coe_mul]; norm_num

/-- Averaging an extended real with itself gives it back: on a real by arithmetic, at either infinity because the sum
    is that infinity again and the factor is positive. -/
theorem add_self_mul_half (x : EReal) : (x + x) * half = x := by
  rw [half_eq]
  induction x using EReal.rec with
  | bot => rw [EReal.bot_add]; exact EReal.bot_mul_coe_of_pos (by norm_num)
  | coe r => rw [← EReal.coe_add, ← EReal.coe_mul]; congr 1; ring
  | top => rw [EReal.top_add_top]; exact EReal.top_mul_coe_of_pos (by norm_num)

/-! ## Layout steps read at an index -/

section Layout
variable {α : Type}

/-- A [1, 2048, 256] block viewed as [2048, 256] reads (0, p, q) at (p, q). -/
theorem block_rows_apply (v : (⟨3, ![1, 2048, 256]⟩ : Shape).Idx → α)
    (h : (⟨3, ![1, 2048, 256]⟩ : Shape).ShapeCasts ⟨2, ![2048, 256]⟩) (p : Fin 2048) (q : Fin 256) :
    shapeCast ⟨2, ![2048, 256]⟩ v h (ix2 p q) = v (ix3 (0 : Fin 1) p q) :=
  shapeCast_apply v h (ix2 p q) (ix3 (0 : Fin 1) p q) (by
    rw [Shape.rowMajor_val_three, Shape.rowMajor_val_two]
    show (0 * 2048 + p.val) * 256 + q.val = p.val * 256 + q.val; omega)

/-- Two [2048, 256] arrays `a`, `b` stacked pairwise along a new middle axis and flattened to one [1, 4096, 256] block:
    row `r` is row `r / 2` of `a` when `r` is even, of `b` when `r` is odd. -/
theorem interleave_apply (a b : (⟨2, ![2048, 256]⟩ : Shape).Idx → α)
    (h1 : (⟨2, ![2048, 256]⟩ : Shape).ShapeCasts ⟨3, ![2048, 1, 256]⟩)
    (hc : Shape.Concatenates [(⟨3, ![2048, 1, 256]⟩ : Shape), ⟨3, ![2048, 1, 256]⟩] ⟨3, ![2048, 2, 256]⟩ 1)
    (h2 : (⟨3, ![2048, 2, 256]⟩ : Shape).ShapeCasts ⟨2, ![4096, 256]⟩)
    (h3 : (⟨2, ![4096, 256]⟩ : Shape).ShapeCasts ⟨3, ![1, 4096, 256]⟩)
    (z : Fin 1) (r : Fin 4096) (q : Fin 256) :
    shapeCast ⟨3, ![1, 4096, 256]⟩ (shapeCast ⟨2, ![4096, 256]⟩
        (concatenate ⟨3, ![2048, 2, 256]⟩ 1 [⟨⟨3, ![2048, 1, 256]⟩, shapeCast ⟨3, ![2048, 1, 256]⟩ a h1⟩,
          ⟨⟨3, ![2048, 1, 256]⟩, shapeCast ⟨3, ![2048, 1, 256]⟩ b h1⟩] hc) h2) h3 (ix3 z r q)
      = if r.val % 2 = 0 then a (ix2 (⟨r.val / 2, by have := r.isLt; omega⟩ : Fin 2048) q)
        else b (ix2 (⟨r.val / 2, by have := r.isLt; omega⟩ : Fin 2048) q) := by
  have hr := r.isLt
  have hz : z.val = 0 := by have := z.isLt; omega
  have hk : r.val / 2 < 2048 := by omega
  have he : r.val % 2 < 2 := by omega
  refine (shapeCast_apply _ h3 (ix3 z r q) (ix2 r q) (by
    rw [Shape.rowMajor_val_two, Shape.rowMajor_val_three]
    show r.val * 256 + q.val = (z.val * 4096 + r.val) * 256 + q.val; omega)).trans ?_
  refine (shapeCast_apply _ h2 (ix2 r q) (ix3 (⟨r.val / 2, hk⟩ : Fin 2048) (⟨r.val % 2, he⟩ : Fin 2) q) (by
    rw [Shape.rowMajor_val_three, Shape.rowMajor_val_two]
    show (r.val / 2 * 2 + r.val % 2) * 256 + q.val = r.val * 256 + q.val; omega)).trans ?_
  by_cases hev : r.val % 2 = 0
  · rw [if_pos hev]
    refine (concatenate_pair_apply_left (t := ⟨3, ![2048, 2, 256]⟩) (1 : Fin 3) _ _ hc
      (ix3 (⟨r.val / 2, hk⟩ : Fin 2048) (⟨r.val % 2, he⟩ : Fin 2) q) rfl (ix3 (⟨r.val / 2, hk⟩ : Fin 2048) (0 : Fin 1) q)
      (fun b => match b with
        | ⟨0, _⟩ => rfl
        | ⟨1, _⟩ => by show 0 = r.val % 2; omega
        | ⟨2, _⟩ => rfl)).trans ?_
    exact shapeCast_apply a h1 (ix3 (⟨r.val / 2, hk⟩ : Fin 2048) (0 : Fin 1) q) (ix2 (⟨r.val / 2, hk⟩ : Fin 2048) q) (by
      rw [Shape.rowMajor_val_two, Shape.rowMajor_val_three]
      show r.val / 2 * 256 + q.val = (r.val / 2 * 1 + 0) * 256 + q.val; omega)
  · rw [if_neg hev]
    refine (concatenate_pair_apply_right (t := ⟨3, ![2048, 2, 256]⟩) (1 : Fin 3) _ _ hc
      (ix3 (⟨r.val / 2, hk⟩ : Fin 2048) (⟨r.val % 2, he⟩ : Fin 2) q) rfl rfl (ix3 (⟨r.val / 2, hk⟩ : Fin 2048) (0 : Fin 1) q)
      (fun b hb => match b, hb with
        | ⟨0, _⟩, _ => rfl
        | ⟨1, _⟩, hb => absurd rfl hb
        | ⟨2, _⟩, _ => rfl)
      (by show 0 + 1 = r.val % 2; omega)).trans ?_
    exact shapeCast_apply b h1 (ix3 (⟨r.val / 2, hk⟩ : Fin 2048) (0 : Fin 1) q) (ix2 (⟨r.val / 2, hk⟩ : Fin 2048) q) (by
      rw [Shape.rowMajor_val_two, Shape.rowMajor_val_three]
      show r.val / 2 * 256 + q.val = (r.val / 2 * 1 + 0) * 256 + q.val; omega)

/-- The neighbour of each row of a [2048, 256] block: the block rotated up by one row (a rotation by 2047 of 2048 rows),
    its last row replaced by a given row `la` of 256 lanes — the row iota compared with 2047 chooses. -/
theorem neighbour_apply (v1 : (⟨2, ![2048, 256]⟩ : Shape).Idx → α) (la : (⟨1, ![256]⟩ : Shape).Idx → α)
    (hrot : (⟨2, ![2048, 256]⟩ : Shape).Rotates 0 none) (hio : (⟨2, ![2048, 256]⟩ : Shape).Iotas .tc 32 [0])
    (hl1 : (⟨1, ![256]⟩ : Shape).ShapeCasts ⟨2, ![1, 256]⟩) (hl2 : (⟨2, ![1, 256]⟩ : Shape).ShapeCasts ⟨2, ![1, 256]⟩)
    (hb : (⟨2, ![1, 256]⟩ : Shape).Broadcasts ⟨2, ![2048, 256]⟩) (p : Fin 2048) (q : Fin 256) :
    select (cmpi .eq (iota .tc ⟨2, ![2048, 256]⟩ 32 [0] hio) (broadcast ⟨2, ![2048, 256]⟩ 2047#32))
        (broadcastTo ⟨2, ![2048, 256]⟩ (shapeCast ⟨2, ![1, 256]⟩ (shapeCast ⟨2, ![1, 256]⟩ la hl1) hl2) hb)
        (dynamicRotate 0 2047#32 none v1 hrot) (ix2 p q)
      = if p.val = 2047 then la (ix1 q) else v1 (ix2 (⟨(p.val + 1) % 2048, Nat.mod_lt _ (by norm_num)⟩ : Fin 2048) q) := by
  have hp := p.isLt
  rw [select_apply]
  have hbit : cmpi .eq (iota .tc ⟨2, ![2048, 256]⟩ 32 [0] hio) (broadcast ⟨2, ![2048, 256]⟩ 2047#32) (ix2 p q)
      = BitVec.ofBool (decide (p.val = 2047)) := by
    show IntOp.cmpi .eq (iota .tc ⟨2, ![2048, 256]⟩ 32 [0] hio (ix2 p q)) 2047#32 = _
    rw [iota_single_apply]
    show BitVec.ofBool (BitVec.ofNat 32 p.val == 2047#32) = _
    congr 1
    by_cases h : p.val = 2047
    · rw [h]; decide
    · rw [decide_eq_false h]
      refine beq_false_of_ne fun e => h ?_
      have := congrArg BitVec.toNat e
      rw [BitVec.toNat_ofNat, Nat.mod_eq_of_lt (by omega)] at this
      exact this
  rw [hbit]
  by_cases h : p.val = 2047
  · rw [if_pos h, decide_eq_true h]
    refine (select_one _ _).trans ?_
    refine (broadcastTo_apply _ hb (ix2 p q) (ix2 (0 : Fin 1) q) (fun a => match a with
      | ⟨0, _⟩ => rfl
      | ⟨1, _⟩ => by show q.val = if (256 : Nat) = 1 then 0 else q.val; rw [if_neg (by decide)])).trans ?_
    rw [shapeCast_self]
    exact shapeCast_apply la hl1 (ix2 (0 : Fin 1) q) (ix1 q) (by
      rw [Shape.rowMajor_val_one, Shape.rowMajor_val_two]
      show q.val = 0 * 256 + q.val; omega)
  · rw [if_neg h, decide_eq_false h]
    refine (select_zero _ _).trans ?_
    exact dynamicRotate_apply (0 : Fin 2) 2047#32 v1 hrot (ix2 p q)
      (ix2 (⟨(p.val + 1) % 2048, Nat.mod_lt _ (by norm_num)⟩ : Fin 2048) q) (fun b => match b with
      | ⟨0, _⟩ => by
        show (p.val + 1) % 2048 = (p.val + 2048 - 2047 % 2048) % 2048
        omega
      | ⟨1, _⟩ => rfl)

/-- The row `la` the last row of a tile takes as its neighbour: on the last tile (a bit `c` that is one) the tile's own
    last row, elsewhere row 0 of the lookahead block. -/
theorem lookahead_apply (c : BitVec 1) (v1 : (⟨2, ![2048, 256]⟩ : Shape).Idx → α) (v2 : (⟨3, ![1, 1, 256]⟩ : Shape).Idx → α)
    (hs : (⟨2, ![2048, 256]⟩ : Shape).Slices ![2047, 0] ⟨2, ![1, 256]⟩)
    (hc1 : (⟨2, ![1, 256]⟩ : Shape).ShapeCasts ⟨1, ![256]⟩) (hc2 : (⟨3, ![1, 1, 256]⟩ : Shape).ShapeCasts ⟨1, ![256]⟩)
    (q : Fin 256) :
    Scalar.select c (shapeCast ⟨1, ![256]⟩ (extractStridedSlice ⟨2, ![1, 256]⟩ ![2047, 0] v1 hs) hc1)
        (shapeCast ⟨1, ![256]⟩ v2 hc2) (ix1 q)
      = if c = 1#1 then v1 (ix2 (2047 : Fin 2048) q) else v2 (ix3 (0 : Fin 1) (0 : Fin 1) q) := by
  by_cases h : c = 1#1
  · rw [if_pos h, h]
    show shapeCast ⟨1, ![256]⟩ (extractStridedSlice ⟨2, ![1, 256]⟩ ![2047, 0] v1 hs) hc1 (ix1 q) = _
    refine (shapeCast_apply _ hc1 (ix1 q) (ix2 (0 : Fin 1) q) (by
      rw [Shape.rowMajor_val_two, Shape.rowMajor_val_one]
      show 0 * 256 + q.val = q.val; omega)).trans ?_
    exact extractStridedSlice_apply ![2047, 0] v1 hs (ix2 (0 : Fin 1) q) (ix2 (2047 : Fin 2048) q) (fun a => match a with
      | ⟨0, _⟩ => by show 2047 = 2047 + 0; rfl
      | ⟨1, _⟩ => by show q.val = 0 + q.val; omega)
  · rw [if_neg h, eq_zero_of_ne_one h]
    show shapeCast ⟨1, ![256]⟩ v2 hc2 (ix1 q) = _
    exact shapeCast_apply v2 hc2 (ix1 q) (ix3 (0 : Fin 1) (0 : Fin 1) q) (by
      rw [Shape.rowMajor_val_three, Shape.rowMajor_val_one]
      show (0 * 1 + 0) * 256 + q.val = q.val; omega)

end Layout

end Cert.Upsample

end
-- ==== Proof.KernelIdealValue.lean ====
/-
  What the idealized kernel's result array holds after the run: the doubled array of its argument.

  Point (b, i) of the grid writes back the 4096 output rows [4096 i, 4096 i + 4096) of sequence b. Output row 4096 i + r
  comes from input row 2048 i + r / 2, which is row r / 2 of the point's block of 2048 rows; the row after it is the next
  row of the same block, except for the block's last row: there it is row 0 of the lookahead block (input row
  2048 (i + 1)), and on the last tile, where the sequence ends, the block's own last row again. The 64 blocks written
  back tile the result array, so the array ends holding the doubled array everywhere.
-/
import proofs.«120798_j87969520157065_2_alg».proof.Proof.KernelIdealRun
import proofs.«120798_j87969520157065_2_alg».proof.Proof.Upsample

set_option maxRecDepth 16384

noncomputable section

namespace Cert.KernelIdeal.Out

open Cert.KernelIdeal Cert.KernelIdeal.Gen Cert.KernelIdeal.Run Cert.Upsample
open Idealize.ShloMosaic Idealize.ShloMosaic.TcCoe Idealize.ShloMosaic.ValueIdx
open Idealize.SL Idealize.SL.Sem
open Idealize.ShloMosaic.Pipeline (Dat)

/-! ## The body's stored value at an index -/

/-- The stored block at row `r`, lane `q`: an even row is row `r / 2` of the loaded block; an odd row the midpoint of
    that row and its neighbour — the next row of the block, or for the block's last row the tile's lookahead row (the
    block's own last row again when the tile bit is set). -/
theorem pay_apply (i : grid0.Coords) (v0 : FVec Ideal S1x2048x256 .f32) (v2 : FVec Ideal S1x1x256 .f32)
    (z : Fin 1) (r : Fin 4096) (q : Fin 256) :
    k0_pay1 (F := Ideal) i v0 v2 (ix3 z r q)
      = if r.val % 2 = 0 then v0 (ix3 (0 : Fin 1) (⟨r.val / 2, by have := r.isLt; omega⟩ : Fin 2048) q)
        else (v0 (ix3 (0 : Fin 1) (⟨r.val / 2, by have := r.isLt; omega⟩ : Fin 2048) q)
          + (if r.val / 2 = 2047 then
              (if Scalar.cmpi .eq (BitVec.ofNat 32 (i 1).val) 3#32 = 1#1 then v0 (ix3 (0 : Fin 1) (2047 : Fin 2048) q)
               else v2 (ix3 (0 : Fin 1) (0 : Fin 1) q))
             else v0 (ix3 (0 : Fin 1) (⟨(r.val / 2 + 1) % 2048, Nat.mod_lt _ (by norm_num)⟩ : Fin 2048) q))) * half := by
  have hr := r.isLt
  unfold k0_pay1
  dsimp only
  refine (interleave_apply _ _ _ _ _ _ z r q).trans ?_
  by_cases hev : r.val % 2 = 0
  · rw [if_pos hev, if_pos hev]
    exact block_rows_apply v0 _ _ q
  · rw [if_neg hev, if_neg hev]
    show (_ + _) * half = _
    rw [block_rows_apply, neighbour_apply, lookahead_apply, block_rows_apply, block_rows_apply]

/-! ## The index maps over the grid -/

theorem hz3 : (![0, 0, 0] : Fin 3 → Nat) = fun _ => 0 := funext fun a => by fin_cases a <;> rfl

/-- The printed index maps, decided over the 64 points: the 2048-row window moves with the output window; the lookahead
    window sits 256 blocks of 8 rows past it, clamped to block 1023 on the last tile; and the body's tile bit is set
    exactly on the last tile. -/
theorem idx_facts : ∀ t : Fin cfg0.N,
      win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = (if win0_2.index t (1 : Fin 3) = 3 then 1023 else (win0_2.index t (1 : Fin 3) + 1) * 256)
    ∧ win0_1.index t (2 : Fin 3) = 0
    ∧ win0_2.index t (0 : Fin 3) ≤ 15 ∧ win0_2.index t (1 : Fin 3) ≤ 3 ∧ win0_2.index t (2 : Fin 3) = 0
    ∧ (Scalar.cmpi .eq (BitVec.ofNat 32 (grid0.coords t 1).val) 3#32 = 1#1 ↔ win0_2.index t (1 : Fin 3) = 3) :=
  (by decide +kernel : ∀ t : Fin grid0.N, _)

/-- Every block of the result array is some point's. -/
theorem idx_onto : ∀ (q0 : Fin 16) (q1 : Fin 4), ∃ t : Fin cfg0.N, win0_2.index t = ![q0.val, q1.val, 0] :=
  (by decide +kernel : ∀ (q0 : Fin 16) (q1 : Fin 4), ∃ t : Fin grid0.N, win0_2.index t = ![q0.val, q1.val, 0])

variable (m : (ℓ : Loc nD τ sig) → Buf (Elt Ideal) ℓ)

/-! ## The blocks read at an index of the argument array -/

/-- Row `p` of the 2048-row block at point `t` is row `2048 i + p` of sequence `b`. -/
theorem iblk0_apply (c : Dev nD) (t : Fin cfg0.N) (z : Fin 1) (p : Fin 2048) (q : Fin 256) (b : Fin 16) (k : Fin 8192)
    (hb : b.val = win0_2.index t (0 : Fin 3)) (hk : k.val = win0_2.index t (1 : Fin 3) * 2048 + p.val) :
    iblk m c 0 t (ix3 z p q) = V m c main_arg0 (ix3 b k q) := by
  obtain ⟨e0, e1, e2, -⟩ := idx_facts t
  have hz : z.val = 0 := by have := z.isLt; omega
  show V m c main_arg0 (((cfg0.win 0).blk t).view.emb (ix3 z p q)) = V m c main_arg0 (ix3 b k q)
  refine congrArg _ (funext fun a => Fin.ext ?_)
  match a with
  | ⟨0, _⟩ => show win0_0.index t (0 : Fin 3) * 1 + 1 * z.val = b.val; omega
  | ⟨1, _⟩ => show win0_0.index t (1 : Fin 3) * 2048 + 1 * p.val = k.val; omega
  | ⟨2, _⟩ => show win0_0.index t (2 : Fin 3) * 256 + 1 * q.val = q.val; omega

/-- Row 0 of the lookahead block at a point that is not on the last tile is the row after the 2048-row block. -/
theorem iblk1_apply (c : Dev nD) (t : Fin cfg0.N) (q : Fin 256) (b : Fin 16) (k : Fin 8192)
    (hlast : win0_2.index t (1 : Fin 3) ≠ 3)
    (hb : b.val = win0_2.index t (0 : Fin 3)) (hk : k.val = (win0_2.index t (1 : Fin 3) + 1) * 2048) :
    View.ld (iblk m c 1 t) r1 (ix3 (0 : Fin 1) (0 : Fin 1) q) = V m c main_arg0 (ix3 b k q) := by
  obtain ⟨-, -, -, e3, e4, e5, -⟩ := idx_facts t
  rw [if_neg hlast] at e4
  show V m c main_arg0 (((cfg0.win 1).blk t).view.emb (r1.idx (ix3 (0 : Fin 1) (0 : Fin 1) q))) = V m c main_arg0 (ix3 b k q)
  refine congrArg _ (funext fun a => Fin.ext ?_)
  match a with
  | ⟨0, _⟩ => show win0_1.index t (0 : Fin 3) * 1 + 1 * (0 + 1 * 0) = b.val; omega
  | ⟨1, _⟩ => show win0_1.index t (1 : Fin 3) * 8 + 1 * (0 + 1 * 0) = k.val; omega
  | ⟨2, _⟩ => show win0_1.index t (2 : Fin 3) * 256 + 1 * (0 + 1 * q.val) = q.val; omega

/-- Row `r` of the output block at point `t` is row `4096 i + r` of sequence `b` of the result array. -/
theorem blk2_emb (t : Fin cfg0.N) (z : Fin 1) (r : Fin 4096) (q : Fin 256) (b : Fin 16) (R : Fin 16384)
    (hb : b.val = win0_2.index t (0 : Fin 3)) (hR : R.val = win0_2.index t (1 : Fin 3) * 4096 + r.val) :
    ((cfg0.win 2).blk t).view.emb (ix3 z r q) = ix3 b R q := by
  obtain ⟨-, -, -, -, -, -, -, -, e8, -⟩ := idx_facts t
  have hz : z.val = 0 := by have := z.isLt; omega
  refine funext fun a => Fin.ext ?_
  match a with
  | ⟨0, _⟩ => show win0_2.index t (0 : Fin 3) * 1 + 1 * z.val = b.val; omega
  | ⟨1, _⟩ => show win0_2.index t (1 : Fin 3) * 4096 + 1 * r.val = R.val; omega
  | ⟨2, _⟩ => show win0_2.index t (2 : Fin 3) * 256 + 1 * q.val = q.val; omega

/-! ## What a point writes back -/

/-- What point `t` writes back is block `t` of the doubled array of the argument as the region finds it. -/
theorem flushed_eq (c : Dev nD) (t : Fin cfg0.N) :
    (dats m 0 c).flushed 2 t = ((cfg0.win 2).blk t).view.read (Elt Ideal) (upsample (V m c main_arg0)) := by
  show (cfg0.win 2).cut (grid0.coords t) ((dats m 0 c).after 2 t) = _
  rw [after2]
  unfold out2
  rw [View.canon_unit_zero hz3]
  simp only [View.ld_unit_zero (S := S1x2048x256) hz3]
  funext j
  obtain ⟨z, r, q, rfl⟩ : ∃ (z : Fin 1) (r : Fin 4096) (q : Fin 256), j = ix3 z r q := ⟨j 0, j 1, j 2, eq_ix3 j⟩
  obtain ⟨-, -, -, -, -, -, f6, f7, -, fbit⟩ := idx_facts t
  have hr := r.isLt
  have hRlt : win0_2.index t (1 : Fin 3) * 4096 + r.val < 16384 := by omega
  have hblt : win0_2.index t (0 : Fin 3) < 16 := by omega
  have hk2 : r.val / 2 < 2048 := by omega
  refine (pay_apply (grid0.coords t) _ _ z r q).trans ?_
  show _ = upsample (V m c main_arg0) (((cfg0.win 2).blk t).view.emb (ix3 z r q))
  rw [blk2_emb t z r q (⟨win0_2.index t (0 : Fin 3), hblt⟩ : Fin 16) (⟨win0_2.index t (1 : Fin 3) * 4096 + r.val, hRlt⟩ : Fin 16384) rfl rfl]
  show _ = if (win0_2.index t (1 : Fin 3) * 4096 + r.val) % 2 = 0 then _ else _
  have hsrc : (src (⟨win0_2.index t (1 : Fin 3) * 4096 + r.val, hRlt⟩ : Fin 16384)).val = win0_2.index t (1 : Fin 3) * 2048 + r.val / 2 := by
    show (win0_2.index t (1 : Fin 3) * 4096 + r.val) / 2 = _; omega
  by_cases hev : r.val % 2 = 0
  · have hev' : (win0_2.index t (1 : Fin 3) * 4096 + r.val) % 2 = 0 := by omega
    rw [if_pos hev, if_pos hev']
    exact iblk0_apply m c t 0 (⟨r.val / 2, hk2⟩ : Fin 2048) q (⟨win0_2.index t (0 : Fin 3), hblt⟩ : Fin 16) (src (⟨win0_2.index t (1 : Fin 3) * 4096 + r.val, hRlt⟩ : Fin 16384)) rfl hsrc
  · have hev' : ¬ (win0_2.index t (1 : Fin 3) * 4096 + r.val) % 2 = 0 := by omega
    rw [if_neg hev, if_neg hev']
    refine congrArg₂ (fun x y : EReal => (x + y) * half)
      (iblk0_apply m c t 0 (⟨r.val / 2, hk2⟩ : Fin 2048) q (⟨win0_2.index t (0 : Fin 3), hblt⟩ : Fin 16) (src (⟨win0_2.index t (1 : Fin 3) * 4096 + r.val, hRlt⟩ : Fin 16384)) rfl hsrc) ?_
    by_cases hk : r.val / 2 = 2047
    · rw [if_pos hk]
      by_cases hlast : win0_2.index t (1 : Fin 3) = 3
      · rw [if_pos (fbit.mpr hlast)]
        refine iblk0_apply m c t 0 (2047 : Fin 2048) q (⟨win0_2.index t (0 : Fin 3), hblt⟩ : Fin 16) (next (src (⟨win0_2.index t (1 : Fin 3) * 4096 + r.val, hRlt⟩ : Fin 16384))) rfl ?_
        show min ((win0_2.index t (1 : Fin 3) * 4096 + r.val) / 2 + 1) 8191 = win0_2.index t (1 : Fin 3) * 2048 + 2047
        omega
      · rw [if_neg (fun h => hlast (fbit.mp h))]
        refine iblk1_apply m c t q (⟨win0_2.index t (0 : Fin 3), hblt⟩ : Fin 16) (next (src (⟨win0_2.index t (1 : Fin 3) * 4096 + r.val, hRlt⟩ : Fin 16384))) hlast rfl ?_
        show min ((win0_2.index t (1 : Fin 3) * 4096 + r.val) / 2 + 1) 8191 = (win0_2.index t (1 : Fin 3) + 1) * 2048
        omega
    · rw [if_neg hk]
      refine iblk0_apply m c t 0 (⟨(r.val / 2 + 1) % 2048, Nat.mod_lt _ (by norm_num)⟩ : Fin 2048) q (⟨win0_2.index t (0 : Fin 3), hblt⟩ : Fin 16) (next (src (⟨win0_2.index t (1 : Fin 3) * 4096 + r.val, hRlt⟩ : Fin 16384))) rfl ?_
      show min ((win0_2.index t (1 : Fin 3) * 4096 + r.val) / 2 + 1) 8191 = win0_2.index t (1 : Fin 3) * 2048 + (r.val / 2 + 1) % 2048
      omega

/-! ## The result array after the run -/

/-- An index of the result array is in point `t`'s block iff each coordinate is in the block's range on its axis. -/
theorem mem_blk2 (t : Fin cfg0.N) (i : S16x16384x256.Idx) :
    i ∈ ((cfg0.win 2).blk t).view.set ↔ ∀ a : Fin 3, win0_2.index t a * S1x4096x256.size a ≤ (i a).val
      ∧ (i a).val < win0_2.index t a * S1x4096x256.size a + S1x4096x256.size a := by
  show i ∈ ((View.whole main_v0).slice (win0_2.rect t)).set ↔ _
  rw [View.set_slice_whole, Rect.mem_set_unit]
  exact Iff.rfl

/-- The 64 blocks written back cover the result array: sequence `b`, row `R` lies in the block of point (b, R / 4096). -/
theorem covered (i : S16x16384x256.Idx) :
    ∃ t : Fin cfg0.N, (cfg0.win 2).flush t = true ∧ i ∈ ((cfg0.win 2).blk t).view.set := by
  have h0 : (i 0).val < 16 := (i 0).isLt
  have h1 : (i 1).val < 16384 := (i 1).isLt
  have h2 : (i 2).val < 256 := (i 2).isLt
  obtain ⟨t, ht⟩ := idx_onto ⟨(i 0).val, h0⟩ ⟨(i 1).val / 4096, by omega⟩
  have q0 : win0_2.index t (0 : Fin 3) = (i 0).val := congrFun ht 0
  have q1 : win0_2.index t (1 : Fin 3) = (i 1).val / 4096 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 256 ≤ (i 2).val ∧ (i 2).val < win0_2.index t (2 : Fin 3) * 256 + 256; omega

/-- The result array after the run is the doubled array of the argument array as launched. -/
theorem final (c : Dev nD) :
    (dats m 0 c).arrAt 2 cfg0.N = upsample (m ((c : Thread nD τ).loc main_arg0)) :=
  (dats m 0 c).arrAt_eq_of_cover 2 (upsample (V m c main_arg0)) (fun t _ => flushed_eq m c t) covered

/-- The run, read: the result array at the doubled array of the argument, the argument unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0) = upsample (m ((c.tc : Thread nD τ).loc main_arg0))
      ∧ r.2.mem ((c.tc : Thread nD τ).loc main_arg0) = m ((c.tc : Thread nD τ).loc main_arg0) :=
  (θ_run defs _ _).mono (fun r h c => ⟨(h c 2).trans (final m c), arg_kept m r h c⟩) (run_main m ρ)

end Cert.KernelIdeal.Out

end
-- ==== Proof.RefValue.lean ====
/-
  The reference computes the doubled array.

  Read at (b, R, l): the final reshape takes row R of the doubled sequence from pair R / 2 of a stack of two arrays, the
  argument itself (member 0, the even rows) and the array of midpoints (member 1, the odd rows). The midpoints are
  (1/2) * (X[b, k, l] + X[b, k + 1, l]) for k < 8191, with the argument's last row appended as row 8191. Against the
  specification this is the commutativity of the product, and at the last row that averaging a value with itself
  gives it back.
-/
import proofs.«120798_j87969520157065_2_alg».proof.Proof.Gen.ReferenceIdeal.Read
import proofs.«120798_j87969520157065_2_alg».proof.Proof.Upsample

set_option maxRecDepth 16384

noncomputable section

namespace Cert.ReferenceIdeal.RefValue

open Cert.ReferenceIdeal Cert.ReferenceIdeal.Gen Cert.ReferenceIdeal.Read Cert.Upsample
open Idealize.ShloMosaic Idealize.ShloMosaic.ValueIdx

/-- The midpoint array with the last row appended, at (b, k, l). -/
theorem odd_rows_apply (X : FVec Ideal S16x8192x256 .f32) (b : Fin 16) (k : Fin 8192) (l : Fin 256) :
    val_main_v6 (F := Ideal) X (ix3 b k l) = (X (ix3 b k l) + X (ix3 b (next k) l)) * half := by
  have hk := k.isLt
  unfold val_main_v6
  by_cases hlast : k.val = 8191
  · -- the appended last row
    refine (concatenate_pair_apply_right (t := S16x8192x256) (1 : Fin 3) _ _ concatenates_S16x8191x256_S16x1x256_S16x8192x256_d1
      (ix3 b k l) rfl rfl (ix3 b (0 : Fin 1) l)
      (fun a ha => match a, ha with
        | ⟨0, _⟩, _ => rfl
        | ⟨1, _⟩, ha => absurd rfl ha
        | ⟨2, _⟩, _ => rfl)
      (by show 0 + 8191 = k.val; omega)).trans ?_
    rw [val_main_v5_apply]
    have e5 : idx_main_v5 (ix3 b (0 : Fin 1) l) = ix3 b k l := by
      funext a; apply Fin.ext
      match a with
      | ⟨0, _⟩ => rfl
      | ⟨1, _⟩ => show 8191 + 0 = k.val; omega
      | ⟨2, _⟩ => rfl
    have en : next k = k := Fin.ext (by show min (k.val + 1) 8191 = k.val; omega)
    rw [e5, en]
    exact (add_self_mul_half _).symm
  · -- a midpoint
    have hk' : k.val < 8191 := by omega
    refine (concatenate_pair_apply_left (t := S16x8192x256) (1 : Fin 3) _ _ concatenates_S16x8191x256_S16x1x256_S16x8192x256_d1
      (ix3 b k l) rfl (ix3 b (⟨k.val, hk'⟩ : Fin 8191) l)
      (fun a => match a with
        | ⟨0, _⟩ => rfl
        | ⟨1, _⟩ => rfl
        | ⟨2, _⟩ => rfl)).trans ?_
    rw [val_main_v4_apply, val_main_v3_apply, val_main_cst_apply, val_main_v2_apply, val_main_v0_apply, val_main_v1_apply]
    have e0 : idx_main_v0 (ix3 b (⟨k.val, hk'⟩ : Fin 8191) l) = ix3 b k l := by
      funext a; apply Fin.ext
      match a with
      | ⟨0, _⟩ => rfl
      | ⟨1, _⟩ => rfl
      | ⟨2, _⟩ => rfl
    have e1 : idx_main_v1 (ix3 b (⟨k.val, hk'⟩ : Fin 8191) l) = ix3 b (next k) l := by
      funext a; apply Fin.ext
      match a with
      | ⟨0, _⟩ => rfl
      | ⟨1, _⟩ => show 1 + k.val = min (k.val + 1) 8191; omega
      | ⟨2, _⟩ => rfl
    rw [e0, e1]
    exact mul_comm _ _

/-- The reference's result is the doubled array of its argument. -/
theorem ref_eq (X : FVec Ideal S16x8192x256 .f32) : val_main_v10 (F := Ideal) X = upsample X := by
  funext i
  obtain ⟨b, R, l, rfl⟩ : ∃ (b : Fin 16) (R : Fin 16384) (l : Fin 256), i = ix3 b R l := ⟨i 0, i 1, i 2, eq_ix3 i⟩
  have hb := b.isLt
  have hR := R.isLt
  have hl := l.isLt
  have he : R.val % 2 < 2 := by omega
  rw [val_main_v10_apply]
  have e10 : idx_main_v10 (ix3 b R l) = ix4 b (src R) (⟨R.val % 2, he⟩ : Fin 2) l := by
    funext a; apply Fin.ext
    match a with
    | ⟨0, _⟩ => show ((b.val * 16384 + R.val) * 256 + l.val) / 4194304 = b.val; omega
    | ⟨1, _⟩ => show ((b.val * 16384 + R.val) * 256 + l.val) / 512 % 8192 = R.val / 2; omega
    | ⟨2, _⟩ => show ((b.val * 16384 + R.val) * 256 + l.val) / 256 % 2 = R.val % 2; omega
    | ⟨3, _⟩ => show ((b.val * 16384 + R.val) * 256 + l.val) % 256 = l.val; omega
  rw [e10]
  unfold val_main_v9
  by_cases hev : R.val % 2 = 0
  · -- an even row: the argument's own row
    refine (concatenate_pair_apply_left (t := S16x8192x2x256) (2 : Fin 4) _ _ concatenates_S16x8192x1x256_S16x8192x1x256_S16x8192x2x256_d2
      (ix4 b (src R) (⟨R.val % 2, he⟩ : Fin 2) l) rfl (ix4 b (src R) (0 : Fin 1) l)
      (fun a => match a with
        | ⟨0, _⟩ => rfl
        | ⟨1, _⟩ => rfl
        | ⟨2, _⟩ => by show 0 = R.val % 2; omega
        | ⟨3, _⟩ => rfl)).trans ?_
    rw [val_main_v7_apply]
    have e7 : idx_main_v7 (ix4 b (src R) (0 : Fin 1) l) = ix3 b (src R) l := by
      funext a; apply Fin.ext
      match a with
      | ⟨0, _⟩ => rfl
      | ⟨1, _⟩ => rfl
      | ⟨2, _⟩ => rfl
    rw [e7]
    show _ = if R.val % 2 = 0 then _ else _
    rw [if_pos hev]
  · -- an odd row: a midpoint
    refine (concatenate_pair_apply_right (t := S16x8192x2x256) (2 : Fin 4) _ _ concatenates_S16x8192x1x256_S16x8192x1x256_S16x8192x2x256_d2
      (ix4 b (src R) (⟨R.val % 2, he⟩ : Fin 2) l) rfl rfl (ix4 b (src R) (0 : Fin 1) l)
      (fun a ha => match a, ha with
        | ⟨0, _⟩, _ => rfl
        | ⟨1, _⟩, _ => rfl
        | ⟨2, _⟩, ha => absurd rfl ha
        | ⟨3, _⟩, _ => rfl)
      (by show 0 + 1 = R.val % 2; omega)).trans ?_
    rw [val_main_v8_apply]
    have e8 : idx_main_v8 (ix4 b (src R) (0 : Fin 1) l) = ix3 b (src R) l := by
      funext a; apply Fin.ext
      match a with
      | ⟨0, _⟩ => rfl
      | ⟨1, _⟩ => rfl
      | ⟨2, _⟩ => rfl
    rw [e8, odd_rows_apply]
    show _ = if R.val % 2 = 0 then _ else _
    rw [if_neg hev]

end Cert.ReferenceIdeal.RefValue

end
-- ==== Proof.lean ====
/-
  The certificate of a kernel that doubles the length of 16 sequences of 8192 rows by linear interpolation — even output
  rows copy the input rows, odd output rows are midpoints of neighbouring input rows, the last odd row the last input
  row — against a reference that slices, averages, appends the last row and interleaves on the host.

  The three frames: each kernel program runs its one pipeline of 64 points to the end and leaves its argument as
  launched; two of the pipeline's windows read the same array, which the region holds in halves. The reference's frame
  is its run read at the argument. The idealization rewrote nothing, so there is nothing to preserve. At the ideal
  instance both programs end with the doubled array of the argument: the kernel's blocks tile it, the reference's
  stages read at an index give it, and the one place the two texts differ — the last row, a midpoint of the row with
  itself against a copy — is (x + x) * (1/2) = x on the extended reals.
-/
import proofs.«120798_j87969520157065_2_alg».proof.Defs
import proofs.«120798_j87969520157065_2_alg».proof.Proof.Gen.Kernel
import proofs.«120798_j87969520157065_2_alg».proof.Proof.Gen.KernelIdeal
import proofs.«120798_j87969520157065_2_alg».proof.Proof.Gen.ReferenceIdeal
import proofs.«120798_j87969520157065_2_alg».proof.Proof.Gen.Pre_finite_inputs
import proofs.«120798_j87969520157065_2_alg».proof.Proof.Gen.ReferenceIdeal.Run
import proofs.«120798_j87969520157065_2_alg».proof.Proof.Gen.ReferenceIdeal.Read
import proofs.«120798_j87969520157065_2_alg».proof.Proof.KernelRun
import proofs.«120798_j87969520157065_2_alg».proof.Proof.KernelIdealRun
import proofs.«120798_j87969520157065_2_alg».proof.Proof.KernelIdealValue
import proofs.«120798_j87969520157065_2_alg».proof.Proof.RefValue

noncomputable section

namespace Cert.Proof

open Idealize.ShloMosaic Idealize.ShloMosaic.TcCoe Idealize.SL.Sem

/-- The kernel as printed runs to the end and leaves its argument unchanged. -/
theorem frame_k : Cert.frame_Kernel := fun m ρ _ => Cert.Kernel.Run.frame m ρ

/-- So does its idealization. -/
theorem frame_ki : Cert.frame_KernelIdeal := fun m ρ _ => Cert.KernelIdeal.Run.frame m ρ

/-- The reference's run, read at its argument. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the kernel's own text. -/
theorem preserves : Cert.preserves_Kernel_KernelIdeal := trivial

/-- Both idealized programs end with the doubled array of the argument. -/
theorem algebraic : Cert.algebraic_KernelIdeal_ReferenceIdeal := by
  intro m ρ m' ρ' _ hagree
  refine ⟨fun c => Cert.Upsample.upsample (m ((c.tc : Thread Cert.KernelIdeal.nD Cert.KernelIdeal.τ).loc Cert.KernelIdeal.main_arg0)),
    Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
